-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x400x512 : Shape := ⟨3, ![4, 400, 512]⟩
abbrev S4x100x512 : Shape := ⟨3, ![4, 100, 512]⟩
abbrev S512x512 : Shape := ⟨2, ![512, 512]⟩
abbrev S512 : Shape := ⟨1, ![512]⟩
abbrev S_ : Shape := ⟨0, ![]⟩

class Facts : Prop where
  bcast_S_S4x400x512 : S_.BroadcastsInDim S4x400x512 (![] : Fin 0 → Fin S4x400x512.rank)
  reducesTo_S4x400x512_S_d0_1_2 : S4x400x512.ReducesTo [0, 1, 2] S_
  h_S_ : 0 < S_.numel
  bcast_S_S4x100x512 : S_.BroadcastsInDim S4x100x512 (![] : Fin 0 → Fin S4x100x512.rank)
  reducesTo_S4x100x512_S_d0_1_2 : S4x100x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S4x400x512 .f32) (main_arg1 : FVec F S4x100x512 .f32) (main_arg2 : FVec F S512x512 .f32) (main_arg3 : FVec F S512 .f32) : IVec S_ 1 :=
  let main_v0 : FVec F S4x400x512 .f32 := Host.absf main_arg0
  let main_cst : FVec F S_ .f32 := constant S_ .f32 0x7F800000#32
  let main_v1 : FVec F S4x400x512 .f32 := broadcastInDim S4x400x512 ![] bcast_S_S4x400x512 main_cst
  let main_v2 : IVec S4x400x512 1 := cmpf .olt main_v0 main_v1
  let main_c : IVec S_ 1 := constantI S_ 1 1#1
  let main_v3 : IVec S_ 1 := (fun x v => Host.reduce IntOp.andi x v reducesTo_S4x400x512_S_d0_1_2 h_S_) main_v2 main_c
  let main_v4 : FVec F S4x100x512 .f32 := Host.absf main_arg1
  let main_cst_0 : FVec F S_ .f32 := constant S_ .f32 0x7F800000#32
  let main_v5 : FVec F S4x100x512 .f32 := broadcastInDim S4x100x512 ![] bcast_S_S4x100x512 main_cst_0
  let main_v6 : IVec S4x100x512 1 := cmpf .olt main_v4 main_v5
  let main_c_1 : IVec S_ 1 := constantI S_ 1 1#1
  let main_v7 : IVec S_ 1 := (fun x v => Host.reduce IntOp.andi x v reducesTo_S4x100x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S4x400x512 : Shape := ⟨3, ![4, 400, 512]⟩
abbrev S4x100x512 : Shape := ⟨3, ![4, 100, 512]⟩
abbrev S512x512 : Shape := ⟨2, ![512, 512]⟩
abbrev S512 : Shape := ⟨1, ![512]⟩
abbrev S4x400x100x512 : Shape := ⟨4, ![4, 400, 100, 512]⟩
abbrev S1x16x512 : Shape := ⟨3, ![1, 16, 512]⟩
abbrev S1x100x512 : Shape := ⟨3, ![1, 100, 512]⟩
abbrev S1x16x100x512 : Shape := ⟨4, ![1, 16, 100, 512]⟩
abbrev S16x512 : Shape := ⟨2, ![16, 512]⟩
abbrev S100x512 : Shape := ⟨2, ![100, 512]⟩
abbrev S16x1x512 : Shape := ⟨3, ![16, 1, 512]⟩
abbrev S16x100x512 : Shape := ⟨3, ![16, 100, 512]⟩
abbrev S1600x512 : Shape := ⟨2, ![1600, 512]⟩
abbrev S1x1x512 : Shape := ⟨3, ![1, 1, 512]⟩

abbrev nBuf : Space → Nat
  | .hbm => 7
  | .vmem => 8
  | .smem => 0
  | _ => 0

abbrev bufTy : (tb : Table) → Fin (tcTables nBuf tb) → BufTy
  | .hbm, ⟨0, _⟩ => ⟨S4x400x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .bf16⟩
  | .hbm, ⟨6, _⟩ => ⟨S4x400x100x512, .f32⟩
  | .local _ .vmem, ⟨0, _⟩ => ⟨S1x16x512, .f32⟩
  | .local _ .vmem, ⟨1, _⟩ => ⟨S1x16x512, .f32⟩
  | .local _ .vmem, ⟨2, _⟩ => ⟨S1x100x512, .f32⟩
  | .local _ .vmem, ⟨3, _⟩ => ⟨S1x100x512, .f32⟩
  | .local _ .vmem, ⟨4, _⟩ => ⟨S512x512, .bf16⟩
  | .local _ .vmem, ⟨5, _⟩ => ⟨S512, .f32⟩
  | .local _ .vmem, ⟨6, _⟩ => ⟨S1x16x100x512, .f32⟩
  | .local _ .vmem, ⟨7, _⟩ => ⟨S1x16x100x512, .f32⟩
  | _, _ => ⟨S4x400x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x100x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x100x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x512_S512x512_1_0 : S512x512.Transposes [1, 0] S512x512
  bitsLt_bf16_f32 : FTy.bits .bf16 < FTy.bits .f32
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x100x512_S1x100x512_0_0_0 : ∀ a, (![0, 0, 0] : Fin 3 → Nat) a + S1x100x512.size a ≤ S1x100x512.size a
  h_S1x100x512 : 0 < S1x100x512.numel
  shapeCasts_S1x100x512_S100x512 : S1x100x512.ShapeCasts S100x512
  shapeCasts_S16x512_S16x1x512 : S16x512.ShapeCasts S16x1x512
  shapeCasts_S100x512_S1x100x512 : S100x512.ShapeCasts S1x100x512
  broadcasts_S16x1x512_S16x100x512 : S16x1x512.Broadcasts S16x100x512
  broadcasts_S1x100x512_S16x100x512 : S1x100x512.Broadcasts S16x100x512
  shapeCasts_S16x100x512_S1600x512 : S16x100x512.ShapeCasts S1600x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S1600x512_S16x100x512 : S1600x512.ShapeCasts S16x100x512
  shapeCasts_S512_S1x1x512 : S512.ShapeCasts S1x1x512
  broadcasts_S1x1x512_S16x100x512 : S1x1x512.Broadcasts S16x100x512
  inb_S1x16x100x512_S1x16x100x512_0_0_0_0 : ∀ a, (![0, 0, 0, 0] : Fin 4 → Nat) a + S1x16x100x512.size a ≤ S1x16x100x512.size a
  h_S1x16x100x512 : 0 < S1x16x100x512.numel
  shapeCasts_S1x16x100x512_S16x100x512 : S1x16x100x512.ShapeCasts S16x100x512
  shapeCasts_S16x100x512_S1x16x100x512 : S16x100x512.ShapeCasts S1x16x100x512
  dot_S1600x512_S512x512_S1600x512_1_0_0_1_n_n_wf : DotDims.WF S1600x512 S512x512 S1600x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x400x512.size a
  hwx0_0 : ∀ i : grid0.Coords, EltTy.bits .f32 = 32 ∨ (Rect.block (s := S4x400x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x100x512.size a ≤ S4x100x512.size a
  hwx0_1 : ∀ i : grid0.Coords, EltTy.bits .f32 = 32 ∨ (Rect.block (s := S4x100x512) S1x100x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x100x512.size a ≤ S4x400x100x512.size a
  hwx0_4 : ∀ i : grid0.Coords, EltTy.bits .f32 = 32 ∨ (Rect.block (s := S4x400x100x512) S1x16x100x512.size (cc0_transform_4 i) (hinb0_4 i)).WholeWords (EltTy.packing .f32)

variable [Facts₀]

def dot_S1600x512_S512x512_S1600x512_1_0_0_1_n_n : DotDims S1600x512 S512x512 S1600x512 where
  lhsContracting := [1]
  rhsContracting := [0]
  lhsNonContracting := [0]
  rhsNonContracting := [1]
  lhsBatch := []
  rhsBatch := []
  wf := dot_S1600x512_S512x512_S1600x512_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x100x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x16x100x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x400x512 : Shape := ⟨3, ![4, 400, 512]⟩
abbrev S4x100x512 : Shape := ⟨3, ![4, 100, 512]⟩
abbrev S512x512 : Shape := ⟨2, ![512, 512]⟩
abbrev S512 : Shape := ⟨1, ![512]⟩
abbrev S4x400x1x512 : Shape := ⟨4, ![4, 400, 1, 512]⟩
abbrev S4x1x100x512 : Shape := ⟨4, ![4, 1, 100, 512]⟩
abbrev S4x400x100x512 : Shape := ⟨4, ![4, 400, 100, 512]⟩
abbrev S1x1x1x512 : Shape := ⟨4, ![1, 1, 1, 512]⟩

abbrev nBuf : Space → Nat
  | .hbm => 14
  | .vmem => 0
  | .smem => 0
  | _ => 0

abbrev bufTy : (tb : Table) → Fin (tcTables nBuf tb) → BufTy
  | .hbm, ⟨0, _⟩ => ⟨S4x400x512, .f32⟩
  | .hbm, ⟨1, _⟩ => ⟨S4x100x512, .f32⟩
  | .hbm, ⟨2, _⟩ => ⟨S512x512, .f32⟩
  | .hbm, ⟨3, _⟩ => ⟨S512, .f32⟩
  | .hbm, ⟨4, _⟩ => ⟨S4x400x1x512, .f32⟩
  | .hbm, ⟨5, _⟩ => ⟨S4x1x100x512, .f32⟩
  | .hbm, ⟨6, _⟩ => ⟨S4x400x100x512, .f32⟩
  | .hbm, ⟨7, _⟩ => ⟨S4x400x100x512, .f32⟩
  | .hbm, ⟨8, _⟩ => ⟨S4x400x100x512, .f32⟩
  | .hbm, ⟨9, _⟩ => ⟨S4x400x100x512, .f32⟩
  | .hbm, ⟨10, _⟩ => ⟨S4x400x100x512, .f32⟩
  | .hbm, ⟨11, _⟩ => ⟨S1x1x1x512, .f32⟩
  | .hbm, ⟨12, _⟩ => ⟨S4x400x100x512, .f32⟩
  | .hbm, ⟨13, _⟩ => ⟨S4x400x100x512, .f32⟩
  | _, _ => ⟨S4x400x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S4x400x512_S4x400x1x512_0_1_3 : S4x400x512.BroadcastsInDim S4x400x1x512 (![0, 1, 3] : Fin 3 → Fin S4x400x1x512.rank)
  bcast_S4x100x512_S4x1x100x512_0_2_3 : S4x100x512.BroadcastsInDim S4x1x100x512 (![0, 2, 3] : Fin 3 → Fin S4x1x100x512.rank)
  bcast_S4x400x1x512_S4x400x100x512_0_1_2_3 : S4x400x1x512.BroadcastsInDim S4x400x100x512 (![0, 1, 2, 3] : Fin 4 → Fin S4x400x100x512.rank)
  bcast_S4x1x100x512_S4x400x100x512_0_1_2_3 : S4x1x100x512.BroadcastsInDim S4x400x100x512 (![0, 1, 2, 3] : Fin 4 → Fin S4x400x100x512.rank)
  bcast_S512_S1x1x1x512_3 : S512.BroadcastsInDim S1x1x1x512 (![3] : Fin 1 → Fin S1x1x1x512.rank)
  bcast_S1x1x1x512_S4x400x100x512_0_1_2_3 : S1x1x1x512.BroadcastsInDim S4x400x100x512 (![0, 1, 2, 3] : Fin 4 → Fin S4x400x100x512.rank)
  dot_S4x400x100x512_S512x512_S4x400x100x512_3_1_012_0_n_n_wf : DotDims.WF S4x400x100x512 S512x512 S4x400x100x512 [3] [1] [0, 1, 2] [0] [] []

variable [Facts₀]

def dot_S4x400x100x512_S512x512_S4x400x100x512_3_1_012_0_n_n : DotDims S4x400x100x512 S512x512 S4x400x100x512 where
  lhsContracting := [3]
  rhsContracting := [1]
  lhsNonContracting := [0, 1, 2]
  rhsNonContracting := [0]
  lhsBatch := []
  rhsBatch := []
  wf := dot_S4x400x100x512_S512x512_S4x400x100x512_3_1_012_0_n_n_wf

class Facts : Prop extends Facts₀ where

variable [Facts]
-- ==== Proof.LibAxes.lean ====
/-
  Layout operations of rank-3 tiles read at an index given by coordinates.

  A tile `[a, b, c]` whose two leading axes are merged into rows, `[a * b, c]`, keeps the row-major position:
  row `ρ = i * b + j` of the merged array is the fibre `(i, j, ·)` of the tile, and back. A unit axis put in the
  middle of a matrix, `[a, c] → [a, 1, c]`, or two in front of a vector, `[c] → [1, 1, c]`, moves no element.
  A broadcast to `[a, b, c]` from `[a, 1, c]`, `[1, b, c]` or `[1, 1, c]` reads the operand at the coordinates of
  its non-unit axes and at `0` on its unit axes.

  Each lemma states one such operation at an index written `ixN …`, for any element type and any sizes, so that it
  applies to a printed operation by unification; the merged row is a variable `ρ` with its value as a hypothesis.
-/
import Idealize.ShloMosaic.Lib.Pipeline.Value
import Idealize.ShloMosaic.Lib.ValueIdx

namespace Cert.LibAxes

open Idealize.ShloMosaic Idealize.ShloMosaic.ValueIdx

variable {α : Type}

/-! ## Unit axes added by a shape cast -/

/-- An `[a, c]` array cast to `[a, 1, c]` reads, at `(i, u, k)`, the operand at `(i, k)`: the unit axis in the middle
    contributes nothing to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-! ## Two leading axes merged into rows, and split again -/

/-- An `[a, b, c]` tile cast to `[n, c]` (`n = a * b` rows) reads, at `(ρ, k)` with `ρ = i * b + j`, the tile at
    `(i, j, k)`: both positions are `(i * b + j) * c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (ρ : Fin n)
    (hρ : ρ.val = i.val * b + j.val) :
    shapeCast ⟨2, ![n, c]⟩ x h (ix2 ρ k) = x (ix3 i j k) :=
  shapeCast_apply x h _ _ (by
    rw [Shape.rowMajor_val_three, Shape.rowMajor_val_two]
    show (i.val * b + j.val) * c + k.val = ρ.val * c + k.val
    rw [hρ])

/-- An `[n, c]` array of `n = a * b` rows cast to `[a, b, c]` reads, at `(i, j, k)`, row `ρ = i * b + j` at `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (ρ : Fin n)
    (hρ : ρ.val = i.val * b + j.val) :
    shapeCast ⟨3, ![a, b, c]⟩ x h (ix3 i j k) = x (ix2 ρ k) :=
  shapeCast_apply x h _ _ (by
    rw [Shape.rowMajor_val_three, Shape.rowMajor_val_two]
    show ρ.val * c + k.val = (i.val * b + j.val) * c + k.val
    rw [hρ])

/-! ## Broadcasts to a rank-3 tile -/

/-- An `[a, 1, c]` array broadcast to `[a, b, c]` reads, at `(i, j, k)`, the operand at `(i, 0, k)`: every `j` sees
    the same row. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: one row for the
    whole tile. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.TilePayload.lean ====
/-
  What the kernel body stores, read at one element of its `[1, 16, 100, 512]` tile.

  The body takes a tile of 16 encoder rows `x0 : [1, 16, 512]`, the batch entry's 100 predictor rows
  `x1 : [1, 100, 512]`, the transposed weights `x2 : [512, 512]` and the bias `x3 : [512]`. It forms the hidden tile
  `h[r, u, k] = tanh (x0[0, r, k] + x1[0, u, k])` by two broadcasts, lays its `16 · 100` fibres out as the rows
  `ρ = 100 r + u` of a `[1600, 512]` matrix, multiplies by `x2` into a zero accumulator, splits the rows again and adds
  the bias along the last axis. So at `(0, r, u, v)` the stored value is

      (∑ k < 512, tanh (x0[0, r, k] + x1[0, u, k]) · x2[k, v]) + x3[v]:

  merging and splitting the two leading axes cancel (both keep the row-major position), a change of float format is the
  identity on the extended reals, and the zero accumulator adds nothing.
-/
import proofs.«103745_j23132693856322_2_alg».proof.Proof.Gen.KernelIdeal.Skeleton
import proofs.«103745_j23132693856322_2_alg».proof.Proof.LibAxes
import Idealize.ShloMosaic.Lib.ValueLayout
import Idealize.ShloMosaic.PureOps.Ideal.Laws

noncomputable section

namespace Cert.Joiner.Tile

open Cert.KernelIdeal Cert.KernelIdeal.Gen Idealize.ShloMosaic Idealize.ShloMosaic.ValueIdx Cert.LibAxes
open scoped BigOperators

/-! ## The tile's matrix product as a sum over the 512 hidden units -/

/-- The left operand's row coordinate is the output's row. -/
theorem lhs_row (i : S1600x512.Idx) (q : dot_S1600x512_S512x512_S1600x512_1_0_0_1_n_n.contr.Idx) :
    (dot_S1600x512_S512x512_S1600x512_1_0_0_1_n_n.lhsIdx i q 0).val = (i 0).val := by
  unfold DotDims.lhsIdx
  rw [dif_neg (show ¬(0 : Fin S1600x512.rank) ∈ dot_S1600x512_S512x512_S1600x512_1_0_0_1_n_n.lhsBatch by decide), dif_pos (show (0 : Fin S1600x512.rank) ∈ dot_S1600x512_S512x512_S1600x512_1_0_0_1_n_n.lhsNonContracting by decide)]
  rfl

/-- The left operand's column coordinate is the contraction index. -/
theorem lhs_col (i : S1600x512.Idx) (q : dot_S1600x512_S512x512_S1600x512_1_0_0_1_n_n.contr.Idx) :
    (dot_S1600x512_S512x512_S1600x512_1_0_0_1_n_n.lhsIdx i q 1).val = (q ⟨0, by decide⟩).val :=
  dot_S1600x512_S512x512_S1600x512_1_0_0_1_n_n.lhsIdx_val_of_single rfl i q

/-- The right operand's row coordinate is the contraction index. -/
theorem rhs_row (i : S1600x512.Idx) (q : dot_S1600x512_S512x512_S1600x512_1_0_0_1_n_n.contr.Idx) :
    (dot_S1600x512_S512x512_S1600x512_1_0_0_1_n_n.rhsIdx i q 0).val = (q ⟨0, by decide⟩).val :=
  dot_S1600x512_S512x512_S1600x512_1_0_0_1_n_n.rhsIdx_val_of_single rfl i q

/-- The right operand's column coordinate is the output's column. -/
theorem rhs_col (i : S1600x512.Idx) (q : dot_S1600x512_S512x512_S1600x512_1_0_0_1_n_n.contr.Idx) :
    (dot_S1600x512_S512x512_S1600x512_1_0_0_1_n_n.rhsIdx i q 1).val = (i 1).val := by
  unfold DotDims.rhsIdx
  rw [dif_neg (show ¬(1 : Fin S512x512.rank) ∈ dot_S1600x512_S512x512_S1600x512_1_0_0_1_n_n.rhsBatch by decide), dif_pos (show (1 : Fin S512x512.rank) ∈ dot_S1600x512_S512x512_S1600x512_1_0_0_1_n_n.rhsNonContracting by decide)]
  rfl

/-- Into the zero accumulator, the product of a `[1600, 512]` matrix `A` and a `[512, 512]` matrix `B` at row `ρ` and
    column `q` is `∑ k, A[ρ, k] · B[k, q]`. -/
theorem rows_matmul_apply (A : FVec Ideal S1600x512 .bf16) (B : FVec Ideal S512x512 .bf16) (ρ : Fin 1600) (q : Fin 512) :
    FloatOps.matmul dot_S1600x512_S512x512_S1600x512_1_0_0_1_n_n none A B (constant (F := Ideal) S1600x512 .f32 0x00000000#32) (ix2 ρ q)
      = ∑ k : Fin 512, A (ix2 ρ k) * B (ix2 k q) := by
  rw [Ideal.matmul_constant_zero_apply, ← Equiv.sum_comp (contrEquiv1 dot_S1600x512_S512x512_S1600x512_1_0_0_1_n_n 512 rfl rfl).symm]
  refine Finset.sum_congr rfl fun k _ => ?_
  have hk := contrEquiv1_symm_val dot_S1600x512_S512x512_S1600x512_1_0_0_1_n_n 512 rfl rfl k
  have el : dot_S1600x512_S512x512_S1600x512_1_0_0_1_n_n.lhsIdx (ix2 ρ q) ((contrEquiv1 dot_S1600x512_S512x512_S1600x512_1_0_0_1_n_n 512 rfl rfl).symm k) = ix2 ρ k := funext fun a => Fin.ext (by
    match a with
    | ⟨0, _⟩ => exact lhs_row _ _
    | ⟨1, _⟩ => exact (lhs_col _ _).trans hk)
  have er : dot_S1600x512_S512x512_S1600x512_1_0_0_1_n_n.rhsIdx (ix2 ρ q) ((contrEquiv1 dot_S1600x512_S512x512_S1600x512_1_0_0_1_n_n 512 rfl rfl).symm k) = ix2 k q := funext fun a => Fin.ext (by
    match a with
    | ⟨0, _⟩ => exact (rhs_row _ _).trans hk
    | ⟨1, _⟩ => exact rhs_col _ _)
  rw [el, er]

/-! ## The three broadcast operands at an element of the hidden tile -/

/-- The encoder tile, given a unit middle axis and repeated over the 100 predictor steps, holds at `(r, u, k)` encoder
    row `r` at `k`, whatever `u`. -/
theorem encRows_apply (x0 : Vec Ideal S1x16x512 .f32) (h1 : S1x16x512.ShapeCasts S16x512) (h2 : S16x512.ShapeCasts S16x1x512)
    (h3 : S16x1x512.Broadcasts S16x100x512) (r : Fin 16) (u : Fin 100) (k : Fin 512) :
    broadcastTo S16x100x512 (shapeCast S16x1x512 (shapeCast S16x512 x0 h1) h2) h3 (ix3 r u k) = x0 (ix3 (0 : Fin 1) r k) :=
  (broadcastTo_a1c_abc_apply _ h3 r u k).trans
    ((shapeCast_ac_a1c_apply _ h2 r (0 : Fin 1) k).trans (shapeCast_1ab_ab_apply x0 h1 r k))

/-- The predictor rows, repeated over the 16 encoder rows of the tile, hold at `(r, u, k)` predictor row `u` at `k`,
    whatever `r`. -/
theorem predRows_apply (x1 : Vec Ideal S1x100x512 .f32) (h4 : S1x100x512.ShapeCasts S100x512) (h5 : S100x512.ShapeCasts S1x100x512)
    (h6 : S1x100x512.Broadcasts S16x100x512) (r : Fin 16) (u : Fin 100) (k : Fin 512) :
    broadcastTo S16x100x512 (shapeCast S1x100x512 (shapeCast S100x512 x1 h4) h5) h6 (ix3 r u k) = x1 (ix3 (0 : Fin 1) u k) :=
  (broadcastTo_1bc_abc_apply _ h6 r u k).trans
    ((shapeCast_ab_1ab_apply _ h5 (0 : Fin 1) u k).trans (shapeCast_1ab_ab_apply x1 h4 u k))

/-- The bias, repeated over every `(r, u)` of the tile, holds at `(r, u, v)` the bias of unit `v`. -/
theorem biasRows_apply (x3 : Vec Ideal S512 .f32) (h7 : S512.ShapeCasts S1x1x512) (h8 : S1x1x512.Broadcasts S16x100x512)
    (r : Fin 16) (u : Fin 100) (v : Fin 512) :
    broadcastTo S16x100x512 (shapeCast S1x1x512 x3 h7) h8 (ix3 r u v) = x3 (ix1 v) :=
  (broadcastTo_11c_abc_apply _ h8 r u v).trans (shapeCast_c_11c_apply x3 h7 (0 : Fin 1) (0 : Fin 1) v)

/-! ## The stored value at an element of the tile -/

/-- Row `(r, u)` of the tile is row `100 r + u` of the merged matrix. -/
abbrev mergedRow (r : Fin 16) (u : Fin 100) : Fin 1600 := ⟨r.val * 100 + u.val, by omega⟩

/-- The body's stored value at `(0, r, u, v)`: the hidden vector of encoder row `r` and predictor row `u` contracted
    with column `v` of the transposed weights, plus the bias of unit `v`. -/
theorem payload_apply (x0 : Vec Ideal S1x16x512 .f32) (x1 : Vec Ideal S1x100x512 .f32) (x2 : Vec Ideal S512x512 .bf16)
    (x3 : Vec Ideal S512 .f32) (r : Fin 16) (u : Fin 100) (v : Fin 512) :
    k0_pay1 x0 x1 x2 x3 (ix4 (0 : Fin 1) r u v)
      = (∑ k : Fin 512, Ideal.tanh (x0 (ix3 (0 : Fin 1) r k) + x1 (ix3 (0 : Fin 1) u k)) * x2 (ix2 k v)) + x3 (ix1 v) := by
  unfold k0_pay1
  refine (shapeCast_abc_1abc_apply _ _ (0 : Fin 1) r u v).trans ?_
  refine (addf_apply _ _ _).trans (congrArg₂ (· + ·) ?_ (biasRows_apply x3 _ _ r u v))
  refine (shapeCast_nc_abc_apply _ _ r u v (mergedRow r u) rfl).trans ?_
  refine (rows_matmul_apply _ _ (mergedRow r u) v).trans (Finset.sum_congr rfl fun k _ => ?_)
  refine congrArg₂ (· * ·) ?_ (congrFun (shapeCast_self x2 _) (ix2 k v))
  refine (shapeCast_abc_nc_apply _ _ r u k (mergedRow r u) rfl).trans ?_
  exact congrArg Ideal.tanh ((addf_apply _ _ _).trans
    (congrArg₂ (· + ·) (encRows_apply x0 _ _ _ r u k) (predRows_apply x1 _ _ _ r u k)))

end Cert.Joiner.Tile

end
-- ==== Proof.JoinerSpec.lean ====
/-
  The joiner as one function of its four argument arrays, on the extended reals.

  For a batch entry `b`, an encoder frame `t`, a predictor step `u` and an output unit `v`,

      out[b, t, u, v] = (∑ k < 512, tanh (enc[b, t, k] + pred[b, u, k]) · W[v, k]) + bias[v].

  The hidden vector `tanh (enc[b, t, ·] + pred[b, u, ·])` is the broadcast sum of one encoder row and one predictor
  row; the projection contracts it with row `v` of the weight matrix (the weights are stored output-major, so the
  product with the transposed matrix `Wᵀ[k, v] = W[v, k]` is the same sum, term by term); the bias is added last.
  Nothing here depends on how the `(b, t)` rows are tiled, nor on the order in which the 512 products are added.
-/
import Idealize.ShloMosaic.PureOps.Ideal
import Idealize.ShloMosaic.Lib.ValueIdx

noncomputable section

namespace Cert.Joiner

open Idealize.ShloMosaic Idealize.ShloMosaic.ValueIdx
open scoped BigOperators

/-- The joiner's value at the coordinates `(b, t, u, v)`: the hidden vector of encoder row `(b, t)` and predictor row
    `(b, u)` projected on weight row `v`, plus the bias of unit `v`. -/
def joinerAt (enc : (⟨3, ![4, 400, 512]⟩ : Shape).Idx → EReal) (pred : (⟨3, ![4, 100, 512]⟩ : Shape).Idx → EReal)
    (W : (⟨2, ![512, 512]⟩ : Shape).Idx → EReal) (bias : (⟨1, ![512]⟩ : Shape).Idx → EReal)
    (b : Fin 4) (t : Fin 400) (u : Fin 100) (v : Fin 512) : EReal :=
  (∑ k : Fin 512, Ideal.tanh (enc (ix3 b t k) + pred (ix3 b u k)) * W (ix2 v k)) + bias (ix1 v)

/-- The joiner's whole output array, index by index. -/
def joiner (enc : (⟨3, ![4, 400, 512]⟩ : Shape).Idx → EReal) (pred : (⟨3, ![4, 100, 512]⟩ : Shape).Idx → EReal)
    (W : (⟨2, ![512, 512]⟩ : Shape).Idx → EReal) (bias : (⟨1, ![512]⟩ : Shape).Idx → EReal) :
    (⟨4, ![4, 400, 100, 512]⟩ : Shape).Idx → EReal :=
  fun i => joinerAt enc pred W bias (i 0) (i 1) (i 2) (i 3)

/-- At an index given by its coordinates the array is the value at those coordinates. -/
theorem joiner_ix4 (enc : (⟨3, ![4, 400, 512]⟩ : Shape).Idx → EReal) (pred : (⟨3, ![4, 100, 512]⟩ : Shape).Idx → EReal)
    (W : (⟨2, ![512, 512]⟩ : Shape).Idx → EReal) (bias : (⟨1, ![512]⟩ : Shape).Idx → EReal)
    (b : Fin 4) (t : Fin 400) (u : Fin 100) (v : Fin 512) :
    joiner enc pred W bias (ix4 b t u v) = joinerAt enc pred W bias b t u v := rfl

/-- The same for an index known by the values of its four coordinates. -/
theorem joiner_of_coords (enc : (⟨3, ![4, 400, 512]⟩ : Shape).Idx → EReal) (pred : (⟨3, ![4, 100, 512]⟩ : Shape).Idx → EReal)
    (W : (⟨2, ![512, 512]⟩ : Shape).Idx → EReal) (bias : (⟨1, ![512]⟩ : Shape).Idx → EReal)
    (i : (⟨4, ![4, 400, 100, 512]⟩ : Shape).Idx) (b : Fin 4) (t : Fin 400) (u : Fin 100) (v : Fin 512)
    (h0 : (i 0).val = b.val) (h1 : (i 1).val = t.val) (h2 : (i 2).val = u.val) (h3 : (i 3).val = v.val) :
    joiner enc pred W bias i = joinerAt enc pred W bias b t u v := by
  obtain rfl : i = ix4 b t u v := funext fun a => Fin.ext (by
    match a with
    | ⟨0, _⟩ => exact h0
    | ⟨1, _⟩ => exact h1
    | ⟨2, _⟩ => exact h2
    | ⟨3, _⟩ => exact h3)
  rfl

end Cert.Joiner

end
-- ==== Proof.TileJoiner.lean ====
/-
  A tile of the kernel's output is the corresponding tile of the joiner.

  Suppose the four blocks the body loads are what they should be, element by element: encoder row `r` of the tile is
  frame `tt` of batch entry `bq`; predictor row `u` is step `u` of the same batch entry; the weights block is the
  TRANSPOSE of the weight matrix, `x2[k, v] = W[v, k]`; the bias block is the bias. Then the value the body stores at
  `(0, r, u, v)` is the joiner at `(bq, tt, u, v)`: the two sums have the same 512 terms in the same order, the factor
  `Wᵀ[k, v]` of the kernel's product being the factor `W[v, k]` of the reference's contraction.
-/
import proofs.«103745_j23132693856322_2_alg».proof.Proof.TilePayload
import proofs.«103745_j23132693856322_2_alg».proof.Proof.JoinerSpec

noncomputable section

namespace Cert.Joiner.Tile

open Cert.KernelIdeal Cert.KernelIdeal.Gen Idealize.ShloMosaic Idealize.ShloMosaic.ValueIdx
open scoped BigOperators

/-- At explicit coordinates of the tile. -/
theorem tile_joiner (E : (⟨3, ![4, 400, 512]⟩ : Shape).Idx → EReal) (P : (⟨3, ![4, 100, 512]⟩ : Shape).Idx → EReal)
    (W : (⟨2, ![512, 512]⟩ : Shape).Idx → EReal) (B : (⟨1, ![512]⟩ : Shape).Idx → EReal)
    (x0 : Vec Ideal S1x16x512 .f32) (x1 : Vec Ideal S1x100x512 .f32) (x2 : Vec Ideal S512x512 .bf16) (x3 : Vec Ideal S512 .f32)
    (bq : Fin 4) (tt : Fin 400) (r : Fin 16) (u : Fin 100) (v : Fin 512)
    (h0 : ∀ k : Fin 512, x0 (ix3 (0 : Fin 1) r k) = E (ix3 bq tt k))
    (h1 : ∀ k : Fin 512, x1 (ix3 (0 : Fin 1) u k) = P (ix3 bq u k))
    (h2 : ∀ k : Fin 512, x2 (ix2 k v) = W (ix2 v k))
    (h3 : x3 (ix1 v) = B (ix1 v)) :
    k0_pay1 x0 x1 x2 x3 (ix4 (0 : Fin 1) r u v) = joinerAt E P W B bq tt u v := by
  rw [payload_apply]
  unfold joinerAt
  rw [h3]
  refine congrArg (· + B (ix1 v)) (Finset.sum_congr rfl fun k _ => ?_)
  rw [h0 k, h1 k, h2 k]

/-- At any index `j` of the tile: its leading coordinate is `0`, the other three are the row, the step and the unit. -/
theorem tile_joiner_idx (E : (⟨3, ![4, 400, 512]⟩ : Shape).Idx → EReal) (P : (⟨3, ![4, 100, 512]⟩ : Shape).Idx → EReal)
    (W : (⟨2, ![512, 512]⟩ : Shape).Idx → EReal) (B : (⟨1, ![512]⟩ : Shape).Idx → EReal)
    (x0 : Vec Ideal S1x16x512 .f32) (x1 : Vec Ideal S1x100x512 .f32) (x2 : Vec Ideal S512x512 .bf16) (x3 : Vec Ideal S512 .f32)
    (j : S1x16x100x512.Idx) (bq : Fin 4) (tt : Fin 400)
    (h0 : ∀ k : Fin 512, x0 (ix3 (0 : Fin 1) (j 1) k) = E (ix3 bq tt k))
    (h1 : ∀ k : Fin 512, x1 (ix3 (0 : Fin 1) (j 2) k) = P (ix3 bq (j 2) k))
    (h2 : ∀ k : Fin 512, x2 (ix2 k (j 3)) = W (ix2 (j 3) k))
    (h3 : x3 (ix1 (j 3)) = B (ix1 (j 3))) :
    k0_pay1 x0 x1 x2 x3 j = joinerAt E P W B bq tt (j 2) (j 3) := by
  obtain ⟨r, u, v, rfl⟩ : ∃ (r : Fin 16) (u : Fin 100) (v : Fin 512), j = ix4 (0 : Fin 1) r u v :=
    ⟨j 1, j 2, j 3, funext fun a => by
      match a with
      | ⟨0, _⟩ => exact Fin.ext (by have h : (j 0).val < 1 := (j 0).isLt; show (j 0).val = 0; omega)
      | ⟨1, _⟩ => rfl
      | ⟨2, _⟩ => rfl
      | ⟨3, _⟩ => rfl⟩
  exact tile_joiner E P W B x0 x1 x2 x3 bq tt r u v h0 h1 h2 h3

end Cert.Joiner.Tile

end
-- ==== Proof.KernelJoiner.lean ====
/-
  The kernel's output array is the joiner of its arguments.

  The grid has a point for each batch entry `bq < 4` and each tile `tq < 25` of 16 encoder frames. At that point the
  output's block is rows `16 tq … 16 tq + 15` of batch entry `bq`, all 100 predictor steps and all 512 units; the encoder
  block is the same frames of the same batch entry, the predictor block is the whole of batch entry `bq`, and the
  weights and the bias are read whole. The weights the region finds are not the argument but its transpose (in another
  float format, which changes no value): what the host wrote before the region.

  So each block the body loads is, element by element, what `Tile.tile_joiner_idx` asks, and the block a point writes
  back is that block of the joiner's array. The 100 blocks cover the array — frame `t` of batch entry `b` lies in
  tile `t / 16` —, hence the array after the run is the joiner's.
-/
import proofs.«103745_j23132693856322_2_alg».proof.Proof.Gen.KernelIdeal.Value
import proofs.«103745_j23132693856322_2_alg».proof.Proof.TileJoiner
import Idealize.ShloMosaic.Lib.StableHlo.Run
import Idealize.ShloMosaic.Lib.ValueLayout

noncomputable section

namespace Cert.Joiner.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## Where each window's block sits, at every grid point -/

/-- The encoder block moves with the output's block on the batch and frame axes; the predictor block on the batch axis
    only; the weights, the bias and the output's last two axes do not move. Decided over the 100 points. -/
theorem idx_facts : ∀ t : Fin cfg0.N,
    win0_0.index t (0 : Fin 3) = win0_4.index t (0 : Fin 4) ∧ win0_0.index t (1 : Fin 3) = win0_4.index t (1 : Fin 4)
    ∧ win0_0.index t (2 : Fin 3) = 0
    ∧ win0_1.index t (0 : Fin 3) = win0_4.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 4) ≤ 3 ∧ win0_4.index t (1 : Fin 4) ≤ 24
    ∧ win0_4.index t (2 : Fin 4) = 0 ∧ win0_4.index t (3 : Fin 4) = 0 :=
  (by decide +kernel : ∀ t : Fin grid0.N, _)

/-- Every (batch entry, tile) pair is some point's output block. -/
theorem idx_onto : ∀ (q0 : Fin 4) (q1 : Fin 25), ∃ t : Fin cfg0.N, win0_4.index t = ![q0.val, q1.val, 0, 0] :=
  (by decide +kernel : ∀ (q0 : Fin 4) (q1 : Fin 25), ∃ t : Fin grid0.N, win0_4.index t = ![q0.val, q1.val, 0, 0])

/-! ## The weights the region finds -/

/-- Before the region the host wrote the transpose of the weight matrix, in the narrower float format. -/
theorem V_wt (c : Dev nD) :
    (V m c main_v1 : S512x512.Idx → EReal)
      = truncf (F := Ideal) .bf16 (transpose S512x512 [1, 0] (m ((c : Thread nD τ).loc main_arg2) : S512x512.Idx → EReal)
          transposes_S512x512_S512x512_1_0) bitsLt_bf16_f32 := by
  dsimp only [Gen.V, Gen.hostOps0]; after_results

/-- So at `(k, v)` they hold `W[v, k]`. -/
theorem wt_apply (c : Dev nD) (k v : Fin 512) :
    (V m c main_v1 : S512x512.Idx → EReal) (ix2 k v) = (m ((c : Thread nD τ).loc main_arg2) : S512x512.Idx → EReal) (ix2 v k) := by
  rw [V_wt]
  exact transpose_ix2_apply _ _ k v

/-! ## Each input block, element by element -/

/-- The encoder block at point `t`: row `r` is frame `16 · tile + r` of the point's batch entry. -/
theorem enc_blk (c : Dev nD) (t : Fin cfg0.N) (r : Fin 16) (k : Fin 512) (bq : Fin 4) (tt : Fin 400)
    (hb : bq.val = win0_4.index t (0 : Fin 4)) (ht : tt.val = win0_4.index t (1 : Fin 4) * 16 + r.val) :
    (iblk m c 0 t : Vec Ideal S1x16x512 .f32) (ix3 (0 : Fin 1) r k)
      = (m ((c : Thread nD τ).loc main_arg0) : S4x400x512.Idx → EReal) (ix3 bq tt k) := by
  obtain ⟨e0, e1, e2, -⟩ := idx_facts t
  unfold iblk
  rw [View.read_apply]
  show V m c main_arg0 _ = _
  rw [V_main_arg0]
  refine congrArg (m ((c : Thread nD τ).loc main_arg0) : S4x400x512.Idx → EReal) (funext fun a => Fin.ext ?_)
  match a with
  | ⟨0, _⟩ => show win0_0.index t (0 : Fin 3) * 1 + 1 * 0 = bq.val; omega
  | ⟨1, _⟩ => show win0_0.index t (1 : Fin 3) * 16 + 1 * r.val = tt.val; omega
  | ⟨2, _⟩ => show win0_0.index t (2 : Fin 3) * 512 + 1 * k.val = k.val; omega

/-- The predictor block at point `t`: the whole of the point's batch entry. -/
theorem pred_blk (c : Dev nD) (t : Fin cfg0.N) (u : Fin 100) (k : Fin 512) (bq : Fin 4)
    (hb : bq.val = win0_4.index t (0 : Fin 4)) :
    (iblk m c 1 t : Vec Ideal S1x100x512 .f32) (ix3 (0 : Fin 1) u k)
      = (m ((c : Thread nD τ).loc main_arg1) : S4x100x512.Idx → EReal) (ix3 bq u k) := by
  obtain ⟨-, -, -, e0, e1, e2, -⟩ := idx_facts t
  unfold iblk
  rw [View.read_apply]
  show V m c main_arg1 _ = _
  rw [V_main_arg1]
  refine congrArg (m ((c : Thread nD τ).loc main_arg1) : S4x100x512.Idx → EReal) (funext fun a => Fin.ext ?_)
  match a with
  | ⟨0, _⟩ => show win0_1.index t (0 : Fin 3) * 1 + 1 * 0 = bq.val; omega
  | ⟨1, _⟩ => show win0_1.index t (1 : Fin 3) * 100 + 1 * u.val = u.val; omega
  | ⟨2, _⟩ => show win0_1.index t (2 : Fin 3) * 512 + 1 * k.val = k.val; omega

/-- The weights block at any point: the transposed weight matrix, whole. -/
theorem wt_blk (c : Dev nD) (t : Fin cfg0.N) (k v : Fin 512) :
    (iblk m c 2 t : Vec Ideal S512x512 .bf16) (ix2 k v)
      = (m ((c : Thread nD τ).loc main_arg2) : S512x512.Idx → EReal) (ix2 v k) := by
  obtain ⟨-, -, -, -, -, -, e0, e1, -⟩ := idx_facts t
  unfold iblk
  rw [View.read_apply]
  show V m c main_v1 _ = _
  refine Eq.trans (congrArg (V m c main_v1 : S512x512.Idx → EReal) (funext fun a => Fin.ext ?_)) (wt_apply m c k v)
  match a with
  | ⟨0, _⟩ => show win0_2.index t (0 : Fin 2) * 512 + 1 * k.val = k.val; omega
  | ⟨1, _⟩ => show win0_2.index t (1 : Fin 2) * 512 + 1 * v.val = v.val; omega

/-- The bias block at any point: the bias, whole. -/
theorem bias_blk (c : Dev nD) (t : Fin cfg0.N) (v : Fin 512) :
    (iblk m c 3 t : Vec Ideal S512 .f32) (ix1 v) = (m ((c : Thread nD τ).loc main_arg3) : S512.Idx → EReal) (ix1 v) := by
  obtain ⟨-, -, -, -, -, -, -, -, e0, -⟩ := idx_facts t
  unfold iblk
  rw [View.read_apply]
  show V m c main_arg3 _ = _
  rw [V_main_arg3]
  refine congrArg (m ((c : Thread nD τ).loc main_arg3) : S512.Idx → EReal) (funext fun a => Fin.ext ?_)
  match a with
  | ⟨0, _⟩ => show win0_3.index t (0 : Fin 1) * 512 + 1 * v.val = v.val; omega

/-! ## What a point writes back, the cover, and the array after the run -/

/-- The joiner of the argument arrays as launched. -/
abbrev result (c : Dev nD) : S4x400x100x512.Idx → EReal :=
  joiner (m ((c : Thread nD τ).loc main_arg0)) (m ((c : Thread nD τ).loc main_arg1)) (m ((c : Thread nD τ).loc main_arg2))
    (m ((c : Thread nD τ).loc main_arg3))

/-- WHAT POINT `t` WRITES BACK is block `t` of the joiner's array. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz4]
  simp only [View.ld_unit_zero (S := S1x16x512) hz3, View.ld_unit_zero (S := S1x100x512) hz3,
    View.ld_unit_zero (S := S512x512) hz2, View.ld_unit_zero (S := S512) hz1]
  obtain ⟨-, -, -, -, -, -, -, -, -, b0, b1, e2, e3⟩ := idx_facts t
  funext j
  have hj1 : (j 1).val < 16 := (j 1).isLt
  have hj2 : (j 2).val < 100 := (j 2).isLt
  have hj3 : (j 3).val < 512 := (j 3).isLt
  show k0_pay1 (iblk m c 0 t) (iblk m c 1 t) (iblk m c 2 t) (iblk m c 3 t) j
    = result m c (((cfg0.win 4).blk t).view.emb j)
  refine (Tile.tile_joiner_idx _ _ _ _ (iblk m c 0 t) (iblk m c 1 t) (iblk m c 2 t) (iblk m c 3 t) j
    ⟨win0_4.index t (0 : Fin 4), by omega⟩ ⟨win0_4.index t (1 : Fin 4) * 16 + (j 1).val, by omega⟩
    (fun k => enc_blk m c t (j 1) k _ _ rfl rfl) (fun k => pred_blk m c t (j 2) k _ rfl)
    (fun k => wt_blk m c t k (j 3)) (bias_blk m c t (j 3))).trans ?_
  refine (joiner_of_coords _ _ _ _ _ _ _ _ _ ?_ ?_ ?_ ?_).symm
  · show win0_4.index t (0 : Fin 4) * 1 + 1 * (j 0).val = win0_4.index t (0 : Fin 4)
    have hj0 : (j 0).val < 1 := (j 0).isLt
    omega
  · show win0_4.index t (1 : Fin 4) * 16 + 1 * (j 1).val = win0_4.index t (1 : Fin 4) * 16 + (j 1).val
    omega
  · show win0_4.index t (2 : Fin 4) * 100 + 1 * (j 2).val = (j 2).val
    omega
  · show win0_4.index t (3 : Fin 4) * 512 + 1 * (j 3).val = (j 3).val
    omega

/-- An index of the array is in point `t`'s block iff each coordinate is in the block's range on its axis. -/
theorem mem_blk (t : Fin cfg0.N) (i : S4x400x100x512.Idx) :
    i ∈ ((cfg0.win 4).blk t).view.set ↔ ∀ a : Fin 4, win0_4.index t a * S1x16x100x512.size a ≤ (i a).val
      ∧ (i a).val < win0_4.index t a * S1x16x100x512.size a + S1x16x100x512.size a := by
  show i ∈ ((View.whole main_v2).slice (win0_4.rect t)).set ↔ _
  rw [View.set_slice_whole, Rect.mem_set_unit]
  exact Iff.rfl

/-- THE COVER: frame `t` of batch entry `b` is in the block of the point for `(b, t / 16)`. -/
theorem cover (i : S4x400x100x512.Idx) :
    ∃ t : Fin cfg0.N, (cfg0.win 4).flush t = true ∧ i ∈ ((cfg0.win 4).blk t).view.set := by
  have hi0 : (i 0).val < 4 := (i 0).isLt
  have hi1 : (i 1).val < 400 := (i 1).isLt
  have hi2 : (i 2).val < 100 := (i 2).isLt
  have hi3 : (i 3).val < 512 := (i 3).isLt
  obtain ⟨t, ht⟩ := idx_onto ⟨(i 0).val, hi0⟩ ⟨(i 1).val / 16, by omega⟩
  have q0 : win0_4.index t (0 : Fin 4) = (i 0).val := congrFun ht 0
  have q1 : win0_4.index t (1 : Fin 4) = (i 1).val / 16 := congrFun ht 1
  have q2 : win0_4.index t (2 : Fin 4) = 0 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 100 ≤ (i 2).val ∧ (i 2).val < win0_4.index t (2 : Fin 4) * 100 + 100; omega
  | ⟨3, _⟩ => show win0_4.index t (3 : Fin 4) * 512 ≤ (i 3).val ∧ (i 3).val < win0_4.index t (3 : Fin 4) * 512 + 512; omega

/-- THE ARRAY after the run is the joiner of the arguments. -/
theorem final (c : Dev nD) : (dats m 0 c).arrAt 4 cfg0.N = result m c :=
  (dats m 0 c).arrAt_eq_of_cover 4 (result m c) (fun t _ => flushed_eq m c t) cover

/-- The kernel's run re-posted: the result array at the joiner of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Joiner.Kernel

end
-- ==== Proof.RefJoiner.lean ====
/-
  The reference computes the joiner.

  Read one operation at a time, the reference's result at `(b, t, u, v)` is the bias of unit `v` (a vector broadcast
  over the three leading axes) added to the contraction, over the last axis, of `tanh (enc ⊕ pred)` with the weight
  matrix along ITS last axis — where `enc ⊕ pred` at `(b, t, u, k)` is `enc[b, t, k] + pred[b, u, k]`, each operand
  having been given a unit axis and then repeated along it. Following the index through the broadcasts leaves exactly
  the coordinates the specification names.
-/
import proofs.«103745_j23132693856322_2_alg».proof.Proof.Gen.ReferenceIdeal.Read
import proofs.«103745_j23132693856322_2_alg».proof.Proof.JoinerSpec

noncomputable section

namespace Cert.Joiner.Ref

open Cert.ReferenceIdeal Cert.ReferenceIdeal.Read Idealize.ShloMosaic Idealize.ShloMosaic.ValueIdx
open scoped BigOperators

/-! ## The index followed through the broadcasts -/

/-- Through the two broadcasts of the encoder array, `(b, t, u, k)` reads `enc[b, t, k]`. -/
theorem enc_idx (b : Fin 4) (t : Fin 400) (u : Fin 100) (v : Fin 512) (k : Fin 512) :
    idx_main_v0 (idx_main_v2 (lidx_main_v6 (ix4 b t u v) k)) = ix3 b t k :=
  funext fun a => Fin.ext (by match a with | ⟨0, _⟩ => rfl | ⟨1, _⟩ => rfl | ⟨2, _⟩ => rfl)

/-- Through the two broadcasts of the predictor array, `(b, t, u, k)` reads `pred[b, u, k]`. -/
theorem pred_idx (b : Fin 4) (t : Fin 400) (u : Fin 100) (v : Fin 512) (k : Fin 512) :
    idx_main_v1 (idx_main_v3 (lidx_main_v6 (ix4 b t u v) k)) = ix3 b u k :=
  funext fun a => Fin.ext (by match a with | ⟨0, _⟩ => rfl | ⟨1, _⟩ => rfl | ⟨2, _⟩ => rfl)

/-- The contraction pairs hidden unit `k` with `W[v, k]`. -/
theorem w_idx (b : Fin 4) (t : Fin 400) (u : Fin 100) (v : Fin 512) (k : Fin 512) :
    ridx_main_v6 (ix4 b t u v) k = ix2 v k :=
  funext fun a => Fin.ext (by match a with | ⟨0, _⟩ => rfl | ⟨1, _⟩ => rfl)

/-- Through the two broadcasts of the bias, `(b, t, u, v)` reads `bias[v]`. -/
theorem bias_idx (b : Fin 4) (t : Fin 400) (u : Fin 100) (v : Fin 512) :
    idx_main_v7 (idx_main_v8 (ix4 b t u v)) = ix1 v :=
  funext fun a => Fin.ext (by match a with | ⟨0, _⟩ => rfl)

/-! ## The reference's last stage is the joiner -/

/-- The value the reference's last operation writes, as a function of the four arguments, is the joiner's array. -/
theorem reference_eq (x0 : (⟨S4x400x512, .f32⟩ : BufTy).Contents (Elt Ideal)) (x1 : (⟨S4x100x512, .f32⟩ : BufTy).Contents (Elt Ideal))
    (x2 : (⟨S512x512, .f32⟩ : BufTy).Contents (Elt Ideal)) (x3 : (⟨S512, .f32⟩ : BufTy).Contents (Elt Ideal)) :
    val_main_v9 (F := Ideal) x0 x1 x2 x3 = joiner x0 x1 x2 x3 := by
  funext i
  obtain ⟨b, t, u, v, rfl⟩ : ∃ (b : Fin 4) (t : Fin 400) (u : Fin 100) (v : Fin 512), i = ix4 b t u v :=
    ⟨i 0, i 1, i 2, i 3, eq_ix4 i⟩
  rw [joiner_ix4, val_main_v9_apply, val_main_v6_apply, val_main_v8_apply, val_main_v7_apply, bias_idx]
  unfold joinerAt
  refine congrArg (· + x3 (ix1 v)) (Finset.sum_congr rfl fun k _ => ?_)
  rw [val_main_v5_apply, val_main_v4_apply, val_main_v2_apply, val_main_v3_apply, val_main_v0_apply, val_main_v1_apply,
    enc_idx, pred_idx, w_idx]
  rfl

end Cert.Joiner.Ref

end
-- ==== Proof.lean ====
/-
  The joiner kernel computes what its reference computes, on the extended reals.

  Both programs take an encoder array `enc : [4, 400, 512]`, a predictor array `pred : [4, 100, 512]`, a weight matrix
  `W : [512, 512]` stored output-major and a bias `[512]`, and return the array

      out[b, t, u, v] = (∑ k < 512, tanh (enc[b, t, k] + pred[b, u, k]) · W[v, k]) + bias[v]          (`Joiner.joiner`).

  THE REFERENCE builds `enc[b, t, k] + pred[b, u, k]` by broadcasting both operands to `[4, 400, 100, 512]`, applies
  `tanh`, contracts the last axis with the last axis of `W` and adds the broadcast bias: read one operation at a time,
  at an index, that is the formula (`Joiner.Ref.reference_eq`).

  THE KERNEL first transposes `W` on the host (and narrows its float format, which changes no value here). Its grid has a
  point per batch entry and per tile of 16 encoder frames; at a point the body forms the hidden tile
  `tanh (enc[b, 16 q + r, k] + pred[b, u, k])` for the tile's 16 frames and all 100 predictor steps, lays its 1600 fibres
  out as the rows of a matrix, multiplies by the transposed weights into a zero accumulator, splits the rows again and
  adds the bias. At `(r, u, v)` of the tile that is `(∑ k, tanh (…) · Wᵀ[k, v]) + bias[v]` (`Joiner.Tile.payload_apply`),
  and `Wᵀ[k, v] = W[v, k]`: the same 512 terms in the same order as the reference's, so no law of arithmetic beyond
  reading both sums is used and the inputs' finiteness is never needed. Each point writes back its block of the formula's
  array, the 100 blocks cover the array, so the array after the run is the formula's (`Joiner.Kernel.run`).

  The three frames are the generated frame runs (for the reference, its generated run with the result dropped); the
  idealization rewrote no operation, so `preserves` has nothing to show.
-/
import proofs.«103745_j23132693856322_2_alg».proof.Defs
import proofs.«103745_j23132693856322_2_alg».proof.Proof.Gen.Kernel
import proofs.«103745_j23132693856322_2_alg».proof.Proof.Gen.Kernel.Skeleton
import proofs.«103745_j23132693856322_2_alg».proof.Proof.Gen.Kernel.Launch
import proofs.«103745_j23132693856322_2_alg».proof.Proof.Gen.Kernel.Points
import proofs.«103745_j23132693856322_2_alg».proof.Proof.Gen.Kernel.Frame
import proofs.«103745_j23132693856322_2_alg».proof.Proof.Gen.KernelIdeal
import proofs.«103745_j23132693856322_2_alg».proof.Proof.Gen.KernelIdeal.Skeleton
import proofs.«103745_j23132693856322_2_alg».proof.Proof.Gen.KernelIdeal.Launch
import proofs.«103745_j23132693856322_2_alg».proof.Proof.Gen.KernelIdeal.Points
import proofs.«103745_j23132693856322_2_alg».proof.Proof.Gen.KernelIdeal.Frame
import proofs.«103745_j23132693856322_2_alg».proof.Proof.Gen.ReferenceIdeal
import proofs.«103745_j23132693856322_2_alg».proof.Proof.Gen.KernelIdeal.Value
import proofs.«103745_j23132693856322_2_alg».proof.Proof.Gen.ReferenceIdeal.Run
import proofs.«103745_j23132693856322_2_alg».proof.Proof.Gen.ReferenceIdeal.Read
import proofs.«103745_j23132693856322_2_alg».proof.Proof.Gen.Pre_finite_inputs
import proofs.«103745_j23132693856322_2_alg».proof.Proof.KernelJoiner
import proofs.«103745_j23132693856322_2_alg».proof.Proof.RefJoiner
import Idealize.ShloMosaic.Adequacy
import Idealize.ShloMosaic.Init

noncomputable section

namespace Cert.Proof

open Idealize.ShloMosaic Idealize.SL.Sem Cert.Kernel

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the printed kernel's own text read on the extended reals: no rewrite to justify. -/
theorem preserves : Cert.preserves_Kernel_KernelIdeal := trivial

/-- From memories that agree on the four arguments, the kernel's result array ends at the joiner of its arguments and the
    reference's at the joiner of its own: one array. -/
theorem algebraic : Cert.algebraic_KernelIdeal_ReferenceIdeal := by
  intro m ρ m' ρ' _ hagree
  refine ⟨fun c => Cert.Joiner.Kernel.result m c, Cert.Joiner.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _ _).trans ((Cert.Joiner.Ref.reference_eq _ _ _ _).trans ?_)
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
